-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x256x512 : Shape := ⟨4, ![32, 8, 256, 512]⟩
abbrev S32x8x512x512 : Shape := ⟨4, ![32, 8, 512, 512]⟩
abbrev S_ : Shape := ⟨0, ![]⟩

class Facts : Prop where
  bcast_S_S32x8x256x512 : S_.BroadcastsInDim S32x8x256x512 (![] : Fin 0 → Fin S32x8x256x512.rank)
  reducesTo_S32x8x256x512_S_d0_1_2_3 : S32x8x256x512.ReducesTo [0, 1, 2, 3] S_
  h_S_ : 0 < S_.numel
  bcast_S_S32x8x512x512 : S_.BroadcastsInDim S32x8x512x512 (![] : Fin 0 → Fin S32x8x512x512.rank)
  reducesTo_S32x8x512x512_S_d0_1_2_3 : S32x8x512x512.ReducesTo [0, 1, 2, 3] S_

variable [Facts]

def fn {F : FTy → Type} [FloatOps F] (main_arg0 : FVec F S32x8x256x512 .f32) (main_arg1 : FVec F S32x8x512x512 .f32) : IVec S_ 1 :=
  let main_v0 : FVec F S32x8x256x512 .f32 := Host.absf main_arg0
  let main_cst : FVec F S_ .f32 := constant S_ .f32 0x7F800000#32
  let main_v1 : FVec F S32x8x256x512 .f32 := broadcastInDim S32x8x256x512 ![] bcast_S_S32x8x256x512 main_cst
  let main_v2 : IVec S32x8x256x512 1 := cmpf .olt main_v0 main_v1
  let main_c : IVec S_ 1 := constantI S_ 1 1#1
  let main_v3 : IVec S_ 1 := (fun x v => Host.reduce IntOp.andi x v reducesTo_S32x8x256x512_S_d0_1_2_3 h_S_) main_v2 main_c
  let main_v4 : FVec F S32x8x512x512 .f32 := Host.absf main_arg1
  let main_cst_0 : FVec F S_ .f32 := constant S_ .f32 0x7F800000#32
  let main_v5 : FVec F S32x8x512x512 .f32 := broadcastInDim S32x8x512x512 ![] bcast_S_S32x8x512x512 main_cst_0
  let main_v6 : IVec S32x8x512x512 1 := cmpf .olt main_v4 main_v5
  let main_c_1 : IVec S_ 1 := constantI S_ 1 1#1
  let main_v7 : IVec S_ 1 := (fun x v => Host.reduce IntOp.andi x v reducesTo_S32x8x512x512_S_d0_1_2_3 h_S_) main_v6 main_c_1
  let main_v8 : IVec S_ 1 := andi main_v3 main_v7
  main_v8
-- ==== Kernel.lean ====
abbrev S32x8x256x512 : Shape := ⟨4, ![32, 8, 256, 512]⟩
abbrev S32x8x512x512 : Shape := ⟨4, ![32, 8, 512, 512]⟩
abbrev S256x256x512 : Shape := ⟨3, ![256, 256, 512]⟩
abbrev S256x512x512 : Shape := ⟨3, ![256, 512, 512]⟩
abbrev S1x256x512 : Shape := ⟨3, ![1, 256, 512]⟩
abbrev S1x512x512 : Shape := ⟨3, ![1, 512, 512]⟩
abbrev S512x512 : Shape := ⟨2, ![512, 512]⟩
abbrev S512 : Shape := ⟨1, ![512]⟩
abbrev S1x512 : Shape := ⟨2, ![1, 512]⟩
abbrev S256x512 : Shape := ⟨2, ![256, 512]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S32x8x256x512, .f32⟩
  | .hbm, ⟨1, _⟩ => ⟨S32x8x512x512, .f32⟩
  | .hbm, ⟨2, _⟩ => ⟨S256x256x512, .f32⟩
  | .hbm, ⟨3, _⟩ => ⟨S256x512x512, .f32⟩
  | .hbm, ⟨4, _⟩ => ⟨S256x256x512, .f32⟩
  | .hbm, ⟨5, _⟩ => ⟨S32x8x256x512, .f32⟩
  | .local _ .vmem, ⟨0, _⟩ => ⟨S1x256x512, .f32⟩
  | .local _ .vmem, ⟨1, _⟩ => ⟨S1x256x512, .f32⟩
  | .local _ .vmem, ⟨2, _⟩ => ⟨S1x512x512, .f32⟩
  | .local _ .vmem, ⟨3, _⟩ => ⟨S1x512x512, .f32⟩
  | .local _ .vmem, ⟨4, _⟩ => ⟨S1x256x512, .f32⟩
  | .local _ .vmem, ⟨5, _⟩ => ⟨S1x256x512, .f32⟩
  | _, _ => ⟨S32x8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x8x256x512_S256x256x512 : S32x8x256x512.ShapeCasts S256x256x512
  shapeCasts_S32x8x512x512_S256x512x512 : S32x8x512x512.ShapeCasts S256x512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  reduces_S512x512_S512 : S512x512.Reduces [0] S512
  shapeCasts_S512_S1x512 : S512.ShapeCasts S1x512
  broadcasts_S1x512_S512x512 : S1x512.Broadcasts S512x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  reduces_S256x512_S256 : S256x512.Reduces [1] S256
  shapeCasts_S256_S256x1 : S256.ShapeCasts S256x1
  broadcasts_S256x1_S256x512 : S256x1.Broadcasts S256x512
  bitsLt_bf16_f32 : FTy.bits .bf16 < FTy.bits .f32
  broadcasts_S1x512_S256x512 : S1x512.Broadcasts S256x512
  shapeCasts_S256x512_S1x256x512 : S256x512.ShapeCasts S1x256x512
  shapeCasts_S256x256x512_S32x8x256x512 : S256x256x512.ShapeCasts S32x8x256x512
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S256x256x512.size a
  hwx0_0 : ∀ i : grid0.Coords, EltTy.bits .f32 = 32 ∨ (Rect.block (s := S256x256x512) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S256x512x512.size a
  hwx0_1 : ∀ i : grid0.Coords, EltTy.bits .f32 = 32 ∨ (Rect.block (s := S256x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x512.size a ≤ S256x256x512.size a
  hwx0_2 : ∀ i : grid0.Coords, EltTy.bits .f32 = 32 ∨ (Rect.block (s := S256x256x512) S1x256x512.size (cc0_transform_2 i) (hinb0_2 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_v0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x8x256x512 : Shape := ⟨4, ![32, 8, 256, 512]⟩
abbrev S32x8x512x512 : Shape := ⟨4, ![32, 8, 512, 512]⟩
abbrev S_ : Shape := ⟨0, ![]⟩
abbrev S32x8x512 : Shape := ⟨3, ![32, 8, 512]⟩
abbrev S32x8x1x512 : Shape := ⟨4, ![32, 8, 1, 512]⟩
abbrev S32x8x256 : Shape := ⟨3, ![32, 8, 256]⟩
abbrev S32x8x256x1 : Shape := ⟨4, ![32, 8, 256, 1]⟩

abbrev nBuf : Space → Nat
  | .hbm => 36
  | .vmem => 0
  | .smem => 0
  | _ => 0

abbrev bufTy : (tb : Table) → Fin (tcTables nBuf tb) → BufTy
  | .hbm, ⟨0, _⟩ => ⟨S32x8x256x512, .f32⟩
  | .hbm, ⟨1, _⟩ => ⟨S32x8x512x512, .f32⟩
  | .hbm, ⟨2, _⟩ => ⟨S32x8x512x512, .f32⟩
  | .hbm, ⟨3, _⟩ => ⟨S_, .f32⟩
  | .hbm, ⟨4, _⟩ => ⟨S32x8x512, .f32⟩
  | .hbm, ⟨5, _⟩ => ⟨S_, .f32⟩
  | .hbm, ⟨6, _⟩ => ⟨S32x8x512, .f32⟩
  | .hbm, ⟨7, _⟩ => ⟨S32x8x512, .f32⟩
  | .hbm, ⟨8, _⟩ => ⟨S32x8x1x512, .f32⟩
  | .hbm, ⟨9, _⟩ => ⟨S32x8x512x512, .f32⟩
  | .hbm, ⟨10, _⟩ => ⟨S32x8x512x512, .f32⟩
  | .hbm, ⟨11, _⟩ => ⟨S32x8x512x512, .f32⟩
  | .hbm, ⟨12, _⟩ => ⟨S_, .f32⟩
  | .hbm, ⟨13, _⟩ => ⟨S32x8x512, .f32⟩
  | .hbm, ⟨14, _⟩ => ⟨S32x8x1x512, .f32⟩
  | .hbm, ⟨15, _⟩ => ⟨S32x8x1x512, .f32⟩
  | .hbm, ⟨16, _⟩ => ⟨S32x8x512x512, .f32⟩
  | .hbm, ⟨17, _⟩ => ⟨S32x8x512x512, .f32⟩
  | .hbm, ⟨18, _⟩ => ⟨S_, .f32⟩
  | .hbm, ⟨19, _⟩ => ⟨S32x8x256, .f32⟩
  | .hbm, ⟨20, _⟩ => ⟨S32x8x256x1, .f32⟩
  | .hbm, ⟨21, _⟩ => ⟨S_, .f32⟩
  | .hbm, ⟨22, _⟩ => ⟨S32x8x512, .f32⟩
  | .hbm, ⟨23, _⟩ => ⟨S32x8x1x512, .f32⟩
  | .hbm, ⟨24, _⟩ => ⟨S32x8x256x512, .f32⟩
  | .hbm, ⟨25, _⟩ => ⟨S32x8x256x512, .f32⟩
  | .hbm, ⟨26, _⟩ => ⟨S32x8x256x512, .f32⟩
  | .hbm, ⟨27, _⟩ => ⟨S32x8x512x512, .f32⟩
  | .hbm, ⟨28, _⟩ => ⟨S32x8x512x512, .f32⟩
  | .hbm, ⟨29, _⟩ => ⟨S32x8x512x512, .f32⟩
  | .hbm, ⟨30, _⟩ => ⟨S32x8x256x512, .f32⟩
  | .hbm, ⟨31, _⟩ => ⟨S32x8x256x512, .f32⟩
  | .hbm, ⟨32, _⟩ => ⟨S32x8x256x512, .f32⟩
  | .hbm, ⟨33, _⟩ => ⟨S32x8x256x512, .f32⟩
  | .hbm, ⟨34, _⟩ => ⟨S32x8x256x512, .f32⟩
  | .hbm, ⟨35, _⟩ => ⟨S32x8x256x512, .f32⟩
  | _, _ => ⟨S32x8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩

abbrev nD : Nat := 1
abbrev τ : Topo := Topo.v7x

variable {F : FTy → Type} [FloatOps F]

class Facts₀ : Prop where
  reducesTo_S32x8x512x512_S32x8x512_d2 : S32x8x512x512.ReducesTo [2] S32x8x512
  h_S_ : 0 < S_.numel
  bcast_S_S32x8x512 : S_.BroadcastsInDim S32x8x512 (![] : Fin 0 → Fin S32x8x512.rank)
  bcast_S32x8x512_S32x8x1x512_0_1_3 : S32x8x512.BroadcastsInDim S32x8x1x512 (![0, 1, 3] : Fin 3 → Fin S32x8x1x512.rank)
  bcast_S32x8x1x512_S32x8x512x512_0_1_2_3 : S32x8x1x512.BroadcastsInDim S32x8x512x512 (![0, 1, 2, 3] : Fin 4 → Fin S32x8x512x512.rank)
  reducesTo_S32x8x256x512_S32x8x256_d3 : S32x8x256x512.ReducesTo [3] S32x8x256
  bcast_S32x8x256_S32x8x256x1_0_1_2 : S32x8x256.BroadcastsInDim S32x8x256x1 (![0, 1, 2] : Fin 3 → Fin S32x8x256x1.rank)
  bcast_S32x8x256x1_S32x8x256x512_0_1_2_3 : S32x8x256x1.BroadcastsInDim S32x8x256x512 (![0, 1, 2, 3] : Fin 4 → Fin S32x8x256x512.rank)
  bcast_S32x8x1x512_S32x8x256x512_0_1_2_3 : S32x8x1x512.BroadcastsInDim S32x8x256x512 (![0, 1, 2, 3] : Fin 4 → Fin S32x8x256x512.rank)
  dot_S32x8x256x512_S32x8x512x512_S32x8x256x512_3_2_2_3_01_01_wf : DotDims.WF S32x8x256x512 S32x8x512x512 S32x8x256x512 [3] [2] [2] [3] [0, 1] [0, 1]

variable [Facts₀]

def dot_S32x8x256x512_S32x8x512x512_S32x8x256x512_3_2_2_3_01_01 : DotDims S32x8x256x512 S32x8x512x512 S32x8x256x512 where
  lhsContracting := [3]
  rhsContracting := [2]
  lhsNonContracting := [2]
  rhsNonContracting := [3]
  lhsBatch := [0, 1]
  rhsBatch := [0, 1]
  wf := dot_S32x8x256x512_S32x8x512x512_S32x8x256x512_3_2_2_3_01_01_wf

class Facts : Prop extends Facts₀ where

variable [Facts]
-- ==== Proof.LibLogShift.lean ====
/-
  The shift law behind a log-domain normalisation, on the extended reals.

  Fix a finite family `L n` of extended reals, none of them `+∞` (think `L n = log a n` of real numbers `a n`:
  a real number's logarithm is a real number or `-∞`). Write `M` for the family's maximum (the fold of `max`
  from `-∞`), `e n = exp (L n - M)` for the shifted exponentials, `ls = log (∑ n, e n)`, and
  `lw n = (L n - M) - ls` for the normalised logarithms. Two programs may carry the normaliser differently:
  one keeps `e n` and the offset `M - (ls + M)`; the other recomputes the maximum `w` of the `lw n` and
  uses `exp (lw n - w)` and the offset `w`. The law says these are the same numbers:

      w = M - (ls + M)        and        exp (lw n - w) = e n   for every n.

  There are two cases. If `M` is a real number `m`, some `L n` equals `m`, every shifted term `L n - M` is
  `≤ 0` (a real number or `-∞`) and one of them is `0`; so `∑ e` is a real number `≥ 1`, `ls` is a real number,
  the maximum of the `lw n` is `0 - ls`, and everything is arithmetic of real numbers (with `-∞` absorbing).
  If `M = -∞`, every `L n` is `-∞`; with the conventions `-∞ - (-∞) = -∞`, `exp (-∞) = 0`, `log 0 = -∞` both
  sides are `-∞` and `0`. (`M = +∞` is excluded by the hypothesis, and is where the law would fail.)
-/
import Idealize.ShloMosaic.PureOps.Ideal
import Mathlib.Data.Finset.Fold

noncomputable section

namespace Cert.LogShift

open Idealize.ShloMosaic

variable {ι : Type} [Fintype ι]

/-- The maximum of a finite family as both programs compute it: the fold of `max` from `-∞`. -/
def cmax (L : ι → EReal) : EReal := (Finset.univ : Finset ι).fold max ⊥ L

theorem le_cmax (L : ι → EReal) (n : ι) : L n ≤ cmax L :=
  (Finset.le_fold_max (L n)).mpr (Or.inr ⟨n, Finset.mem_univ n, le_rfl⟩)

theorem cmax_le {L : ι → EReal} {b : EReal} (h : ∀ n, L n ≤ b) : cmax L ≤ b :=
  (Finset.fold_max_le b).mpr ⟨bot_le, fun n _ => h n⟩

/-- A maximum that is not `-∞` is attained. -/
theorem exists_eq_cmax {L : ι → EReal} (h : cmax L ≠ ⊥) : ∃ n, L n = cmax L := by
  rcases (Finset.le_fold_max (cmax L)).mp (le_refl (cmax L)) with h0 | ⟨n, -, hn⟩
  · exact absurd (le_bot_iff.mp h0) h
  · exact ⟨n, le_antisymm (le_cmax L n) hn⟩

theorem cmax_eq_bot {L : ι → EReal} (h : ∀ n, L n = ⊥) : cmax L = ⊥ :=
  le_bot_iff.mp (cmax_le fun n => (h n).le)

theorem eq_bot_of_cmax_eq_bot {L : ι → EReal} (h : cmax L = ⊥) (n : ι) : L n = ⊥ :=
  le_bot_iff.mp (h ▸ le_cmax L n)

theorem cmax_ne_top {L : ι → EReal} (h : ∀ n, L n ≠ ⊤) : cmax L ≠ ⊤ := by
  intro e
  rcases (Finset.le_fold_max ⊤).mp (le_of_eq e.symm) with h0 | ⟨n, -, hn⟩
  · exact absurd (top_le_iff.mp h0) (by decide)
  · exact h n (top_le_iff.mp hn)

/-- A fold of `max` that starts from `-∞` is the family's maximum. -/
theorem fold_eq_cmax {N : ℕ} (f g : Fin N → EReal) (b : EReal) (hb : b = ⊥) (h : ∀ n, f n = g n) :
    (Finset.univ : Finset (Fin N)).fold max b f = cmax g := by
  subst hb
  exact congrArg (fun u => (Finset.univ : Finset (Fin N)).fold max ⊥ u) (funext h)

/-- The f32 word `0xFF800000` denotes `-∞`. -/
theorem neg_inf : Ideal.ofBits .f32 0xFF800000#32 = (⊥ : EReal) := by
  simp [Ideal.ofBits, Ideal.ieee]

/-- A finite sum of real numbers, taken in the extended reals, is the real sum. -/
theorem coe_sum (s : Finset ι) (f : ι → ℝ) : (∑ n ∈ s, (f n : EReal)) = ((∑ n ∈ s, f n : ℝ) : EReal) := by
  classical
  induction s using Finset.induction_on with
  | empty => simp
  | insert a s ha ih => rw [Finset.sum_insert ha, Finset.sum_insert ha, ih, EReal.coe_add]

/-- The logarithm of a number other than `+∞` is not `+∞`. -/
theorem log_ne_top {a : EReal} (h : a ≠ ⊤) : Ideal.log a ≠ ⊤ := by
  induction a using EReal.rec with
  | bot => simp
  | top => exact absurd rfl h
  | coe r =>
    rw [Ideal.log_coe]
    split
    · decide
    · exact EReal.coe_ne_top _

/-- THE SHIFT LAW (the file's header). -/
theorem shift_law (L : ι → EReal) (hL : ∀ n, L n ≠ ⊤) :
    cmax (fun n => L n - cmax L - Ideal.log (∑ n, Ideal.exp (L n - cmax L)))
        = cmax L - (Ideal.log (∑ n, Ideal.exp (L n - cmax L)) + cmax L)
      ∧ ∀ n, Ideal.exp (L n - cmax L - Ideal.log (∑ n, Ideal.exp (L n - cmax L))
            - cmax (fun n => L n - cmax L - Ideal.log (∑ n, Ideal.exp (L n - cmax L))))
          = Ideal.exp (L n - cmax L) := by
  have hM := cmax_ne_top hL
  generalize hMd : cmax L = M at hM ⊢
  induction M using EReal.rec with
  | top => exact absurd rfl hM
  | bot =>
    -- every term is -∞
    have hb : ∀ n, L n = ⊥ := eq_bot_of_cmax_eq_bot hMd
    have hsh : ∀ n, L n - ⊥ = ⊥ := fun n => by rw [hb n]; rfl
    simp only [hsh, Ideal.exp_bot, Finset.sum_const_zero]
    have hl0 : Ideal.log 0 = ⊥ := by
      rw [show (0 : EReal) = ((0 : ℝ) : EReal) from rfl, Ideal.log_coe, if_pos le_rfl]
    rw [hl0]
    have hbb : (⊥ : EReal) - ⊥ = ⊥ := rfl
    have hc : cmax (fun _ : ι => (⊥ : EReal) - ⊥) = ⊥ := cmax_eq_bot fun _ => hbb
    rw [hc]
    refine ⟨?_, fun n => ?_⟩
    · simp [hbb]
    · rw [hbb, hbb, Ideal.exp_bot]
  | coe m =>
    -- the maximum is a real number m, attained at some n₀
    obtain ⟨n₀, hn₀⟩ : ∃ n, L n = (m : EReal) := by
      have := exists_eq_cmax (L := L) (by rw [hMd]; exact EReal.coe_ne_bot m)
      rwa [hMd] at this
    have hle : ∀ n, L n ≤ (m : EReal) := fun n => hMd ▸ le_cmax L n
    -- each shifted term is -∞ or a real number ≤ 0; its exponential is a real number in [0, 1]
    have hsh : ∀ n, L n - (m : EReal) = ⊥ ∨ ∃ s : ℝ, s ≤ 0 ∧ L n - (m : EReal) = (s : EReal) := by
      intro n
      have h1 := hL n; have h2 := hle n
      induction hLn : L n using EReal.rec with
      | bot => exact Or.inl rfl
      | top => exact absurd hLn h1
      | coe l =>
        rw [hLn] at h2
        exact Or.inr ⟨l - m, by have := EReal.coe_le_coe_iff.mp h2; linarith, (EReal.coe_sub l m).symm⟩
    have hex : ∀ n, ∃ r : ℝ, 0 ≤ r ∧ Ideal.exp (L n - (m : EReal)) = (r : EReal) := by
      intro n
      rcases hsh n with h | ⟨s, -, h⟩
      · exact ⟨0, le_rfl, by rw [h, Ideal.exp_bot]; rfl⟩
      · exact ⟨Real.exp s, (Real.exp_pos s).le, by rw [h, Ideal.exp_coe]⟩
    choose er her0 her using hex
    have hsum : (∑ n, Ideal.exp (L n - (m : EReal))) = ((∑ n, er n : ℝ) : EReal) := by
      rw [← coe_sum]; exact Finset.sum_congr rfl fun n _ => her n
    have her1 : er n₀ = 1 := by
      have := her n₀
      rw [hn₀, ← EReal.coe_sub, sub_self, Ideal.exp_coe, Real.exp_zero] at this
      exact (EReal.coe_eq_coe_iff.mp this).symm
    have hSpos : 0 < ∑ n, er n :=
      lt_of_lt_of_le (by rw [her1]; exact one_pos)
        (Finset.single_le_sum (f := er) (fun n _ => her0 n) (Finset.mem_univ n₀))
    have hls : Ideal.log (∑ n, Ideal.exp (L n - (m : EReal))) = ((Real.log (∑ n, er n) : ℝ) : EReal) := by
      rw [hsum, Ideal.log_coe, if_neg (not_le.mpr hSpos)]
    rw [hls]
    generalize Real.log (∑ n, er n) = lam
    -- the recomputed maximum is 0 - ls
    have hw : cmax (fun n => L n - (m : EReal) - (lam : EReal)) = ((-lam : ℝ) : EReal) := by
      apply le_antisymm
      · apply cmax_le
        intro n
        rcases hsh n with h | ⟨s, hs, h⟩
        · rw [h]; exact bot_le
        · rw [h, ← EReal.coe_sub]; exact EReal.coe_le_coe_iff.mpr (by linarith)
      · have := le_cmax (fun n => L n - (m : EReal) - (lam : EReal)) n₀
        refine le_trans (le_of_eq ?_) this
        show _ = L n₀ - (m : EReal) - (lam : EReal)
        rw [hn₀, ← EReal.coe_sub, ← EReal.coe_sub]; congr 1; ring
    rw [hw]
    refine ⟨?_, fun n => ?_⟩
    · rw [← EReal.coe_add, ← EReal.coe_sub]; congr 1; ring
    · rcases hsh n with h | ⟨s, -, h⟩
      · rw [h]; rfl
      · rw [h, ← EReal.coe_sub, ← EReal.coe_sub]; congr 2; ring

/-! ## One entry of a log-domain matrix product, written both ways

  Entry `(b, k)` of the product depends on row `b` of the left matrix (`x n`) and column `k` of the right one
  (`a n`). With `L n = log (a n)`: both programs compute `log (∑ n, exp (x n - max x) · R n) + max x + w`; one takes
  `R n = exp (L n - M)` and `w = M - (ls + M)`, the other `R n = exp (lw n - max lw)` and `w = max lw`. -/

/-- `log ∑ exp` of the family shifted by its maximum. -/
def lse (L : ι → EReal) : EReal := Ideal.log (∑ n, Ideal.exp (L n - cmax L))

/-- The normalised logarithms `(L n - M) - ls`. -/
def lw (L : ι → EReal) (n : ι) : EReal := L n - cmax L - lse L

/-- The shift law over the two names above. -/
theorem shift_law' (L : ι → EReal) (hL : ∀ n, L n ≠ ⊤) :
    cmax (lw L) = cmax L - (lse L + cmax L) ∧ ∀ n, Ideal.exp (lw L n - cmax (lw L)) = Ideal.exp (L n - cmax L) :=
  shift_law L hL

/-- The entry with the shifted exponentials kept and the offset `M - (ls + M)`. -/
def entryK (x a : ι → EReal) : EReal :=
  Ideal.log (∑ n, Ideal.exp (x n - cmax x) * Ideal.exp (Ideal.log (a n) - cmax fun n => Ideal.log (a n)))
    + cmax x + (cmax (fun n => Ideal.log (a n)) - (lse (fun n => Ideal.log (a n)) + cmax fun n => Ideal.log (a n)))

/-- The entry with the maximum of the normalised logarithms recomputed. -/
def entryR (x a : ι → EReal) : EReal :=
  Ideal.log (∑ n, Ideal.exp (x n - cmax x) * Ideal.exp (lw (fun n => Ideal.log (a n)) n - cmax (lw fun n => Ideal.log (a n))))
    + cmax x + cmax (lw fun n => Ideal.log (a n))

/-- The two entries are one number when no `a n` is `+∞`. -/
theorem entryR_eq_entryK (x a : ι → EReal) (ha : ∀ n, a n ≠ ⊤) : entryR x a = entryK x a := by
  obtain ⟨h1, h2⟩ := shift_law' (fun n => Ideal.log (a n)) (fun n => log_ne_top (ha n))
  unfold entryR entryK
  rw [Finset.sum_congr rfl (fun n _ => congrArg (Ideal.exp (x n - cmax x) * ·) (h2 n)), h1]

end Cert.LogShift

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.KernelEntry.lean ====
/-
  What one grid point of the kernel stores, read at one entry.

  At a grid point the body holds a block `A` of `accumulators` (`[1, 512, 512]`: rows `n`, columns `k`) and a block
  `X` of `x` (`[1, 256, 512]`: rows `b`, columns `n`). With `L n k = log (A n k)`, `M k` the maximum of column `k` of
  `L`, `E n k = exp (L n k - M k)`, `ls k = log (∑ n, E n k)`, `xm b` the maximum of row `b` of `X`, it stores

      out b k = log (∑ n, exp (X b n - xm b) · E n k) + xm b + (M k - (ls k + M k)).

  A change of float format is the identity on the extended reals, so the two roundings to bf16 in front of the
  matrix product do not appear. The entry depends on row `b` of `X` and column `k` of `A` only: it is
  `LogShift.entryK` of that row and that column. The stages below are the body's operations one at a time, each
  read at an index written by its coordinates.
-/
import proofs.«169046_j23527830847520_1_alg».proof.Proof.Gen.KernelIdeal.Skeleton
import proofs.«169046_j23527830847520_1_alg».proof.Proof.LibLogShift
import proofs.«169046_j23527830847520_1_alg».proof.Proof.LibPlainDot
import proofs.«169046_j23527830847520_1_alg».proof.Proof.LibColumn
import Idealize.ShloMosaic.Lib.ValueLayout
import Idealize.ShloMosaic.Lib.Pipeline.Value
import Idealize.ShloMosaic.PureOps.Ideal.Laws

noncomputable section

namespace Cert.KernelIdeal.Entry

open Idealize.ShloMosaic Idealize.ShloMosaic.ValueIdx Cert.KernelIdeal Cert.KernelIdeal.Gen Cert.LogShift

/-- Reducing the row axis of a `[512, 512]` array: column `k` with row `n` put back is `(n, k)`. -/
theorem lift_col (k n : Fin 512) : reduces_S512x512_S512.lift (ix1 k) n = ix2 n k :=
  funext fun a => Fin.ext (by match a with | ⟨0, _⟩ => rfl | ⟨1, _⟩ => rfl)

/-- Reducing the column axis of a `[256, 512]` array: row `b` with column `n` put back is `(b, n)`. -/
theorem lift_row (b : Fin 256) (n : Fin 512) : reduces_S256x512_S256.lift (ix1 b) n = ix2 b n :=
  funext fun a => Fin.ext (by match a with | ⟨0, _⟩ => rfl | ⟨1, _⟩ => rfl)

/-! ## The stages on the block of `accumulators` -/

/-- `L = log A`, as a `[512, 512]` array. -/
def lg (v0 : Vec Ideal S1x512x512 .f32) : FVec Ideal S512x512 .f32 :=
  log (shapeCast S512x512 v0 shapeCasts_S1x512x512_S512x512 : FVec Ideal S512x512 .f32)

/-- The column maxima `M`. -/
def mx (v0 : Vec Ideal S1x512x512 .f32) : FVec Ideal S512 .f32 :=
  multiReduction .maximumf [0] S512 (lg v0) 0xFF800000#32 reduces_S512x512_S512 (.inl rfl) rfl

/-- `M` as a row `[1, 512]`. -/
def mrow (v0 : Vec Ideal S1x512x512 .f32) : FVec Ideal S1x512 .f32 :=
  shapeCast S1x512 (mx v0) shapeCasts_S512_S1x512

/-- The shifted exponentials `E`. -/
def ex (v0 : Vec Ideal S1x512x512 .f32) : FVec Ideal S512x512 .f32 :=
  exp (subf (lg v0) (broadcastTo S512x512 (mrow v0) broadcasts_S1x512_S512x512))

/-- The column sums of `E`. -/
def sm (v0 : Vec Ideal S1x512x512 .f32) : FVec Ideal S512 .f32 :=
  multiReduction .add [0] S512 (ex v0) 0x00000000#32 reduces_S512x512_S512 (.inl rfl) rfl

/-- The offset row `M - (log (∑ E) + M)`. -/
def wk (v0 : Vec Ideal S1x512x512 .f32) : FVec Ideal S1x512 .f32 :=
  subf (mrow v0) (addf (log (shapeCast S1x512 (sm v0) shapeCasts_S512_S1x512 : FVec Ideal S1x512 .f32)) (mrow v0))

theorem lg_apply (v0 : Vec Ideal S1x512x512 .f32) (n k : Fin 512) :
    lg v0 (ix2 n k) = Ideal.log (v0 (ix3 (0 : Fin 1) n k)) :=
  congrArg Ideal.log (shapeCast_1ab_ab_apply v0 shapeCasts_S1x512x512_S512x512 n k)

theorem mx_apply (v0 : Vec Ideal S1x512x512 .f32) (k : Fin 512) :
    mx v0 (ix1 k) = cmax fun n : Fin 512 => Ideal.log (v0 (ix3 (0 : Fin 1) n k)) :=
  (Ideal.multiReduction_maximumf_single (lg v0) 0xFF800000#32 reduces_S512x512_S512 (.inl rfl) rfl (ix1 k)).trans
    (fold_eq_cmax _ _ _ neg_inf fun n => (congrArg (lg v0) (lift_col k n)).trans (lg_apply v0 n k))

theorem mrow_apply (v0 : Vec Ideal S1x512x512 .f32) (k : Fin 512) :
    mrow v0 (ix2 (0 : Fin 1) k) = cmax fun n : Fin 512 => Ideal.log (v0 (ix3 (0 : Fin 1) n k)) :=
  (shapeCast_a_1a_apply (mx v0) shapeCasts_S512_S1x512 (0 : Fin 1) k).trans (mx_apply v0 k)

theorem ex_apply (v0 : Vec Ideal S1x512x512 .f32) (n k : Fin 512) :
    ex v0 (ix2 n k) = Ideal.exp (Ideal.log (v0 (ix3 (0 : Fin 1) n k))
      - cmax fun n : Fin 512 => Ideal.log (v0 (ix3 (0 : Fin 1) n k))) := by
  show Ideal.exp (lg v0 (ix2 n k) - broadcastTo S512x512 (mrow v0) broadcasts_S1x512_S512x512 (ix2 n k)) = _
  rw [lg_apply, broadcastTo_1b_ab_apply, mrow_apply]

theorem sm_apply (v0 : Vec Ideal S1x512x512 .f32) (k : Fin 512) :
    sm v0 (ix1 k) = ∑ n : Fin 512, Ideal.exp (Ideal.log (v0 (ix3 (0 : Fin 1) n k))
      - cmax fun n : Fin 512 => Ideal.log (v0 (ix3 (0 : Fin 1) n k))) :=
  (Ideal.multiReduction_add_single (ex v0) 0x00000000#32 reduces_S512x512_S512 (.inl rfl) rfl (ix1 k)).trans
    (Finset.sum_congr rfl fun n _ => (congrArg (ex v0) (lift_col k n)).trans (ex_apply v0 n k))

theorem wk_apply (v0 : Vec Ideal S1x512x512 .f32) (k : Fin 512) :
    wk v0 (ix2 (0 : Fin 1) k)
      = cmax (fun n : Fin 512 => Ideal.log (v0 (ix3 (0 : Fin 1) n k)))
        - (lse (fun n : Fin 512 => Ideal.log (v0 (ix3 (0 : Fin 1) n k)))
            + cmax fun n : Fin 512 => Ideal.log (v0 (ix3 (0 : Fin 1) n k))) := by
  show mrow v0 (ix2 (0 : Fin 1) k)
      - (Ideal.log (shapeCast S1x512 (sm v0) shapeCasts_S512_S1x512 (ix2 (0 : Fin 1) k)) + mrow v0 (ix2 (0 : Fin 1) k)) = _
  rw [mrow_apply, shapeCast_a_1a_apply, sm_apply]
  rfl

/-! ## The stages on the block of `x` -/

/-- The block of `x` as a `[256, 512]` array. -/
def xs (v13 : Vec Ideal S1x256x512 .f32) : FVec Ideal S256x512 .f32 :=
  shapeCast S256x512 v13 shapeCasts_S1x256x512_S256x512

/-- The row maxima. -/
def xm (v13 : Vec Ideal S1x256x512 .f32) : FVec Ideal S256 .f32 :=
  multiReduction .maximumf [1] S256 (xs v13) 0xFF800000#32 reduces_S256x512_S256 (.inl rfl) rfl

/-- The row maxima as a column `[256, 1]`. -/
def xcol (v13 : Vec Ideal S1x256x512 .f32) : FVec Ideal S256x1 .f32 :=
  shapeCast S256x1 (xm v13) shapeCasts_S256_S256x1

/-- The shifted exponentials of `x`. -/
def xe (v13 : Vec Ideal S1x256x512 .f32) : FVec Ideal S256x512 .f32 :=
  exp (subf (xs v13) (broadcastTo S256x512 (xcol v13) broadcasts_S256x1_S256x512))

theorem xs_apply (v13 : Vec Ideal S1x256x512 .f32) (b : Fin 256) (n : Fin 512) :
    xs v13 (ix2 b n) = v13 (ix3 (0 : Fin 1) b n) :=
  shapeCast_1ab_ab_apply v13 shapeCasts_S1x256x512_S256x512 b n

theorem xm_apply (v13 : Vec Ideal S1x256x512 .f32) (b : Fin 256) :
    xm v13 (ix1 b) = cmax fun n : Fin 512 => (v13 (ix3 (0 : Fin 1) b n) : EReal) :=
  (Ideal.multiReduction_maximumf_single (xs v13) 0xFF800000#32 reduces_S256x512_S256 (.inl rfl) rfl (ix1 b)).trans
    (fold_eq_cmax _ _ _ neg_inf fun n => (congrArg (xs v13) (lift_row b n)).trans (xs_apply v13 b n))

theorem xcol_apply (v13 : Vec Ideal S1x256x512 .f32) (b : Fin 256) :
    xcol v13 (ix2 b (0 : Fin 1)) = cmax fun n : Fin 512 => (v13 (ix3 (0 : Fin 1) b n) : EReal) :=
  (Cert.Column.shapeCast_a_a1_apply (xm v13) shapeCasts_S256_S256x1 b (0 : Fin 1)).trans (xm_apply v13 b)

theorem xe_apply (v13 : Vec Ideal S1x256x512 .f32) (b : Fin 256) (n : Fin 512) :
    xe v13 (ix2 b n) = Ideal.exp ((v13 (ix3 (0 : Fin 1) b n) : EReal)
      - cmax fun n : Fin 512 => (v13 (ix3 (0 : Fin 1) b n) : EReal)) := by
  show Ideal.exp (xs v13 (ix2 b n) - broadcastTo S256x512 (xcol v13) broadcasts_S256x1_S256x512 (ix2 b n)) = _
  rw [xs_apply, Cert.Column.broadcastTo_a1_ab_apply, xcol_apply]

/-! ## The product and the stored value -/

/-- The matrix product of the two shifted exponentials (the roundings to bf16 are the identity). -/
def pr (v0 : Vec Ideal S1x512x512 .f32) (v13 : Vec Ideal S1x256x512 .f32) : FVec Ideal S256x512 .f32 :=
  matmul dot_S256x512_S512x512_S256x512_1_0_0_1_n_n none (truncf .bf16 (xe v13) bitsLt_bf16_f32)
    (truncf .bf16 (ex v0) bitsLt_bf16_f32) (constant S256x512 .f32 0x00000000#32)

/-- The value stored, as a `[256, 512]` array. -/
def res (v0 : Vec Ideal S1x512x512 .f32) (v13 : Vec Ideal S1x256x512 .f32) : FVec Ideal S256x512 .f32 :=
  addf (addf (log (pr v0 v13)) (broadcastTo S256x512 (xcol v13) broadcasts_S256x1_S256x512))
    (broadcastTo S256x512 (wk v0) broadcasts_S1x512_S256x512)

/-- The body's stored value is these stages composed. -/
theorem pay_eq (v0 : Vec Ideal S1x512x512 .f32) (v13 : Vec Ideal S1x256x512 .f32) :
    k0_pay1 (F := Ideal) v0 v13 = shapeCast S1x256x512 (res v0 v13) shapeCasts_S256x512_S1x256x512 := rfl

theorem plain : Cert.PlainDot.IsPlain dot_S256x512_S512x512_S256x512_1_0_0_1_n_n := ⟨rfl, rfl, rfl, rfl, rfl, rfl⟩

theorem pr_apply (v0 : Vec Ideal S1x512x512 .f32) (v13 : Vec Ideal S1x256x512 .f32) (b : Fin 256) (k : Fin 512) :
    pr v0 v13 (ix2 b k)
      = ∑ n : Fin 512, Ideal.exp ((v13 (ix3 (0 : Fin 1) b n) : EReal) - cmax fun n : Fin 512 => (v13 (ix3 (0 : Fin 1) b n) : EReal))
          * Ideal.exp (Ideal.log (v0 (ix3 (0 : Fin 1) n k)) - cmax fun n : Fin 512 => Ideal.log (v0 (ix3 (0 : Fin 1) n k))) :=
  (Cert.PlainDot.matmul_zero_apply plain none (truncf .bf16 (xe v13) bitsLt_bf16_f32) (truncf .bf16 (ex v0) bitsLt_bf16_f32) b k).trans
    (Finset.sum_congr rfl fun n _ => by
      show xe v13 (ix2 b n) * ex v0 (ix2 n k) = _
      rw [xe_apply, ex_apply])

/-- THE ENTRY: what the body stores at `(0, b, k)` is `entryK` of row `b` of its block of `x` and column `k` of its
    block of `accumulators`. -/
theorem pay_apply (v0 : Vec Ideal S1x512x512 .f32) (v13 : Vec Ideal S1x256x512 .f32) (b : Fin 256) (k : Fin 512) :
    k0_pay1 (F := Ideal) v0 v13 (ix3 (0 : Fin 1) b k)
      = entryK (fun n : Fin 512 => (v13 (ix3 (0 : Fin 1) b n) : EReal)) (fun n : Fin 512 => (v0 (ix3 (0 : Fin 1) n k) : EReal)) := by
  rw [pay_eq]
  refine (shapeCast_ab_1ab_apply (res v0 v13) shapeCasts_S256x512_S1x256x512 (0 : Fin 1) b k).trans ?_
  show Ideal.log (pr v0 v13 (ix2 b k)) + broadcastTo S256x512 (xcol v13) broadcasts_S256x1_S256x512 (ix2 b k)
      + broadcastTo S256x512 (wk v0) broadcasts_S1x512_S256x512 (ix2 b k) = _
  rw [pr_apply, Cert.Column.broadcastTo_a1_ab_apply, xcol_apply, broadcastTo_1b_ab_apply, wk_apply]
  rfl

end Cert.KernelIdeal.Entry

end
-- ==== Proof.KernelArray.lean ====
/-
  The kernel's result array as one function of the two argument arrays.

  The program reshapes `x` `[32, 8, 256, 512]` to `[256, 256, 512]` and `accumulators` `[32, 8, 512, 512]` to
  `[256, 512, 512]` (the two leading axes `(s, d)` merged into `t = 8 s + d`), runs the region over the 256 values
  of `t`, and reshapes the region's `[256, 256, 512]` output back to `[32, 8, 256, 512]`.

  Grid point `t` reads block `t` of both reshaped inputs and writes block `t` of the output; by the entry lemma its
  entry `(b, k)` is `entryK` of row `(t, b, ·)` of the first and column `(t, ·, k)` of the second. The 256 blocks
  tile the output, so the whole output array is that one function `mid` of the two reshaped inputs. A reshape
  keeps row-major positions, and `(s, d, b, n)` and `(8 s + d, b, n)` have the same position; so the final result at
  `(s, d, b, k)` is `entryK` of `x (s, d, b, ·)` and `accumulators (s, d, ·, k)`.
-/
import proofs.«169046_j23527830847520_1_alg».proof.Proof.Gen.KernelIdeal.Frame
import proofs.«169046_j23527830847520_1_alg».proof.Proof.KernelEntry
import Idealize.ShloMosaic.Lib.Pipeline.Value
import Idealize.ShloMosaic.Lib.StableHlo.Run

set_option maxRecDepth 16384

noncomputable section

namespace Cert.KernelIdeal.Arr

open Idealize.ShloMosaic Idealize.ShloMosaic.ValueIdx Idealize.ShloMosaic.TcCoe Idealize.SL.Sem
open Cert.KernelIdeal Cert.KernelIdeal.Gen Cert.LogShift

/-! ## The functions -/

/-- The region's output at `(t, b, k)` from the two reshaped inputs. -/
def midAt (X : S256x256x512.Idx → EReal) (A : S256x512x512.Idx → EReal) (t b : Fin 256) (k : Fin 512) : EReal :=
  entryK (fun n : Fin 512 => X (ix3 t b n)) (fun n : Fin 512 => A (ix3 t n k))

/-- The region's output array. -/
def mid (X : S256x256x512.Idx → EReal) (A : S256x512x512.Idx → EReal) : S256x256x512.Idx → EReal :=
  fun i => midAt X A (i 0) (i 1) (i 2)

/-- The program's result at `(s, d, b, k)` from the two argument arrays. -/
def resAt (X : S32x8x256x512.Idx → EReal) (A : S32x8x512x512.Idx → EReal) (s : Fin 32) (d : Fin 8) (b : Fin 256) (k : Fin 512) : EReal :=
  entryK (fun n : Fin 512 => X (ix4 s d b n)) (fun n : Fin 512 => A (ix4 s d n k))

/-- The program's result array. -/
def res (X : S32x8x256x512.Idx → EReal) (A : S32x8x512x512.Idx → EReal) : S32x8x256x512.Idx → EReal :=
  fun i => resAt X A (i 0) (i 1) (i 2) (i 3)

/-! ## One grid point -/

theorem hz : (![0, 0, 0] : Fin 3 → Nat) = fun _ => 0 := funext fun a => by fin_cases a <;> rfl

/-- What the body stores, given that its two loaded blocks are block `t` of `X` and of `A`. -/
theorem point (v0 : Vec Ideal S1x512x512 .f32) (v13 : Vec Ideal S1x256x512 .f32)
    (X : S256x256x512.Idx → EReal) (A : S256x512x512.Idx → EReal) (t : Fin 256)
    (hx : ∀ (b : Fin 256) (n : Fin 512), (v13 (ix3 (0 : Fin 1) b n) : EReal) = X (ix3 t b n))
    (ha : ∀ (n k : Fin 512), (v0 (ix3 (0 : Fin 1) n k) : EReal) = A (ix3 t n k)) :
    k0_pay1 (F := Ideal) v0 v13 = fun y : S1x256x512.Idx => midAt X A t (y 1) (y 2) := by
  funext y
  obtain ⟨u, b, k, rfl⟩ : ∃ (u : Fin 1) (b : Fin 256) (k : Fin 512), y = ix3 u b k := ⟨y 0, y 1, y 2, eq_ix3 y⟩
  obtain rfl : u = 0 := Subsingleton.elim _ _
  refine (Entry.pay_apply v0 v13 b k).trans ?_
  show entryK _ _ = entryK _ _
  rw [funext fun n => hx b n, funext fun n => ha n k]

/-- The printed index maps over the grid: every window's block index at point `t` is `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

variable (m : (ℓ : Loc nD τ sig) → Buf (Elt Ideal) ℓ)

/-- Block `t` of the first input, read at `(0, b, n)`, is the reshaped `x` at `(t, b, n)`. -/
theorem read_x (c : Dev nD) (t : Fin cfg0.N) (b : Fin 256) (n : Fin 512) :
    (iblk m c 0 t (ix3 (0 : Fin 1) b n) : EReal) = V m c main_v0 (ix3 (Fin.cast N_0 t) b n) := by
  obtain ⟨a0, a1, a2, -⟩ := idx_facts t
  show V m c main_v0 (((cfg0.win 0).blk t).view.emb (ix3 (0 : Fin 1) b n)) = _
  refine congrArg (V m c main_v0) (funext fun a => Fin.ext ?_)
  match a with
  | ⟨0, _⟩ => show win0_0.index t (0 : Fin 3) * 1 + 1 * 0 = t.val; omega
  | ⟨1, _⟩ => show win0_0.index t (1 : Fin 3) * 256 + 1 * b.val = b.val; omega
  | ⟨2, _⟩ => show win0_0.index t (2 : Fin 3) * 512 + 1 * n.val = n.val; omega

/-- Block `t` of the second input, read at `(0, n, k)`, is the reshaped `accumulators` at `(t, n, k)`. -/
theorem read_a (c : Dev nD) (t : Fin cfg0.N) (n k : Fin 512) :
    (iblk m c 1 t (ix3 (0 : Fin 1) n k) : EReal) = V m c main_v1 (ix3 (Fin.cast N_0 t) n k) := by
  obtain ⟨-, -, -, a0, a1, a2, -⟩ := idx_facts t
  show V m c main_v1 (((cfg0.win 1).blk t).view.emb (ix3 (0 : Fin 1) n k)) = _
  refine congrArg (V m c main_v1) (funext fun a => Fin.ext ?_)
  match a with
  | ⟨0, _⟩ => show win0_1.index t (0 : Fin 3) * 1 + 1 * 0 = t.val; omega
  | ⟨1, _⟩ => show win0_1.index t (1 : Fin 3) * 512 + 1 * n.val = n.val; omega
  | ⟨2, _⟩ => show win0_1.index t (2 : Fin 3) * 512 + 1 * k.val = k.val; omega

/-- WHAT POINT `t` WRITES BACK is block `t` of `mid` of the two reshaped inputs. -/
theorem flushed_eq (c : Dev nD) (t : Fin cfg0.N) :
    (dats m 0 c).flushed 2 t = ((cfg0.win 2).blk t).view.read (Elt Ideal) (mid (V m c main_v0) (V m c main_v1)) := by
  show (cfg0.win 2).cut (grid0.coords t) ((dats m 0 c).after 2 t) = _
  rw [after0_2]
  unfold out0_2
  rw [View.canon_unit_zero hz]
  simp only [View.ld_unit_zero (S := S1x512x512) hz, View.ld_unit_zero (S := S1x256x512) hz]
  obtain ⟨-, -, -, -, -, -, c0, c1, c2⟩ := idx_facts t
  funext j
  refine (congrFun (point (iblk m c 1 t) (iblk m c 0 t) (V m c main_v0) (V m c main_v1) (Fin.cast N_0 t)
    (fun b n => read_x m c t b n) (fun n k => read_a m c t n k)) j).trans ?_
  show midAt (V m c main_v0) (V m c main_v1) (Fin.cast N_0 t) (j 1) (j 2)
    = mid (V m c main_v0) (V m c main_v1) (((cfg0.win 2).blk t).view.emb j)
  have hj0 : (j 0).val < 1 := (j 0).isLt
  have e : ((cfg0.win 2).blk t).view.emb j = ix3 (Fin.cast N_0 t) (j 1) (j 2) := by
    funext a; apply Fin.ext
    match a with
    | ⟨0, _⟩ => show win0_2.index t (0 : Fin 3) * 1 + 1 * (j 0).val = t.val; omega
    | ⟨1, _⟩ => show win0_2.index t (1 : Fin 3) * 256 + 1 * (j 1).val = (j 1).val; omega
    | ⟨2, _⟩ => show win0_2.index t (2 : Fin 3) * 512 + 1 * (j 2).val = (j 2).val; omega
  rw [e]
  rfl

/-! ## The region's output array -/

/-- An index of the array is in point `t`'s block iff each coordinate is in the block's range on its axis. -/
theorem mem_blk (t : Fin cfg0.N) (i : S256x256x512.Idx) :
    i ∈ ((cfg0.win 2).blk t).view.set ↔ ∀ a : Fin 3, win0_2.index t a * S1x256x512.size a ≤ (i a).val
      ∧ (i a).val < win0_2.index t a * S1x256x512.size a + S1x256x512.size a := by
  show i ∈ ((View.whole main_v2).slice (win0_2.rect t)).set ↔ _
  rw [View.set_slice_whole, Rect.mem_set_unit]
  exact Iff.rfl

/-- The 256 blocks cover the array: index `(t, b, k)` lies in point `t`'s block. -/
theorem cover (i : S256x256x512.Idx) :
    ∃ t : Fin cfg0.N, (cfg0.win 2).flush t = true ∧ i ∈ ((cfg0.win 2).blk t).view.set := by
  have h0 : (i 0).val < 256 := (i 0).isLt
  have h1 : (i 1).val < 256 := (i 1).isLt
  have h2 : (i 2).val < 512 := (i 2).isLt
  have hN : grid0.N = 256 := N_0
  let t : Fin cfg0.N := ⟨(i 0).val, by show (i 0).val < grid0.N; omega⟩
  have htv : t.val = (i 0).val := rfl
  obtain ⟨-, -, -, -, -, -, c0, c1, c2⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 512 ≤ (i 2).val ∧ (i 2).val < win0_2.index t (2 : Fin 3) * 512 + 512; omega

/-- THE REGION'S OUTPUT after the run is `mid` of the two reshaped inputs. -/
theorem final (c : Dev nD) : (dats m 0 c).arrAt 2 cfg0.N = mid (V m c main_v0) (V m c main_v1) :=
  (dats m 0 c).arrAt_eq_of_cover 2 _ (fun t _ => flushed_eq m c t) cover

/-! ## The reshapes around the region -/

/-- The region finds the first input at the reshaped `x`. -/
theorem V_v0 (c : Dev nD) : (V m c main_v0 : S256x256x512.Idx → EReal)
    = shapeCast S256x256x512 (m ((c : Thread nD τ).loc main_arg0)) shapeCasts_S32x8x256x512_S256x256x512 := by
  show StableHlo.after hostOps0 (fun b => m (c, b)) (Proc.devRef .tc main_v0) = _
  after_results
  rfl

/-- The region finds the second input at the reshaped `accumulators`. -/
theorem V_v1 (c : Dev nD) : (V m c main_v1 : S256x512x512.Idx → EReal)
    = shapeCast S256x512x512 (m ((c : Thread nD τ).loc main_arg1)) shapeCasts_S32x8x512x512_S256x512x512 := by
  show StableHlo.after hostOps0 (fun b => m (c, b)) (Proc.devRef .tc main_v1) = _
  after_results
  rfl

/-- The reshaped `x` at `(8 s + d, b, n)` is `x` at `(s, d, b, n)`. -/
theorem reshape_x (X : S32x8x256x512.Idx → EReal) (h : S32x8x256x512.ShapeCasts S256x256x512)
    (s : Fin 32) (d : Fin 8) (b : Fin 256) (n : Fin 512) (hsd : s.val * 8 + d.val < 256) :
    shapeCast S256x256x512 X h (ix3 (⟨s.val * 8 + d.val, hsd⟩ : Fin 256) b n) = X (ix4 s d b n) :=
  shapeCast_apply X h _ _ (by
    rw [Shape.rowMajor_val_four, Shape.rowMajor_val_three]
    show ((s.val * 8 + d.val) * 256 + b.val) * 512 + n.val = ((s.val * 8 + d.val) * 256 + b.val) * 512 + n.val
    rfl)

/-- The reshaped `accumulators` at `(8 s + d, n, k)` is `accumulators` at `(s, d, n, k)`. -/
theorem reshape_a (A : S32x8x512x512.Idx → EReal) (h : S32x8x512x512.ShapeCasts S256x512x512)
    (s : Fin 32) (d : Fin 8) (n k : Fin 512) (hsd : s.val * 8 + d.val < 256) :
    shapeCast S256x512x512 A h (ix3 (⟨s.val * 8 + d.val, hsd⟩ : Fin 256) n k) = A (ix4 s d n k) :=
  shapeCast_apply A h _ _ (by
    rw [Shape.rowMajor_val_four, Shape.rowMajor_val_three]
    show ((s.val * 8 + d.val) * 512 + n.val) * 512 + k.val = ((s.val * 8 + d.val) * 512 + n.val) * 512 + k.val
    rfl)

/-- The output reshaped back, at `(s, d, b, k)`, is the output at `(8 s + d, b, k)`. -/
theorem reshape_out (G : S256x256x512.Idx → EReal) (h : S256x256x512.ShapeCasts S32x8x256x512)
    (s : Fin 32) (d : Fin 8) (b : Fin 256) (k : Fin 512) (hsd : s.val * 8 + d.val < 256) :
    shapeCast S32x8x256x512 G h (ix4 s d b k) = G (ix3 (⟨s.val * 8 + d.val, hsd⟩ : Fin 256) b k) :=
  shapeCast_apply G h _ _ (by
    rw [Shape.rowMajor_val_four, Shape.rowMajor_val_three]
    show ((s.val * 8 + d.val) * 256 + b.val) * 512 + k.val = ((s.val * 8 + d.val) * 256 + b.val) * 512 + k.val
    rfl)

/-- The three reshapes cancel: `mid` of the reshaped inputs, reshaped back, is `res` of the inputs. -/
theorem reshape_mid (X : S32x8x256x512.Idx → EReal) (A : S32x8x512x512.Idx → EReal)
    (hx : S32x8x256x512.ShapeCasts S256x256x512) (ha : S32x8x512x512.ShapeCasts S256x512x512)
    (ho : S256x256x512.ShapeCasts S32x8x256x512) :
    shapeCast S32x8x256x512 (mid (shapeCast S256x256x512 X hx) (shapeCast S256x512x512 A ha)) ho = res X A := by
  funext i
  obtain ⟨s, d, b, k, rfl⟩ : ∃ (s : Fin 32) (d : Fin 8) (b : Fin 256) (k : Fin 512), i = ix4 s d b k :=
    ⟨i 0, i 1, i 2, i 3, eq_ix4 i⟩
  have hsd : s.val * 8 + d.val < 256 := by have := s.isLt; have := d.isLt; omega
  rw [reshape_out _ ho s d b k hsd]
  show entryK _ _ = entryK _ _
  rw [funext fun n => reshape_x X hx s d b n hsd, funext fun n => reshape_a A ha s d n k hsd]

/-! ## The run -/

/-- After the reshape that follows the region, the result buffer holds the region's output reshaped back. -/
theorem tail (c : Dev nD) :
    (Pipeline.afterTail₀ cfgs (dats m) 0 (V0 m) [hostOps1] c main_v3 : S32x8x256x512.Idx → EReal)
      = shapeCast S32x8x256x512 ((dats m 0 c).arrAt 2 cfg0.N) shapeCasts_S256x256x512_S32x8x256x512 := by
  unfold Pipeline.afterTail₀
  show StableHlo.after hostOps1 _ (Proc.devRef .tc main_v3) = _
  after_results
  have e := Pipeline.withArrays_arr spec0 launch0.win.arr_inj c (V0 m c) (fun w => (dats m 0 c).arrAt w cfg0.N) 2
  exact congrArg (fun G : S256x256x512.Idx → EReal => shapeCast S32x8x256x512 G shapeCasts_S256x256x512_S32x8x256x512) e

/-- THE KERNEL'S RUN: every weakly fair execution terminates with the result at `res` of the two argument arrays,
    which end unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v3)
          = res (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v3 (Pipeline.mem_restRefs_of main_v3 (by decide) (by decide))).trans
        ((tail m c).trans (by rw [final m c, V_v0 m c, V_v1 m c]; exact reshape_mid _ _ _ _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Arr

end
-- ==== Proof.RefEntry.lean ====
/-
  The reference's result read at one entry.

  The reference computes `lw = log_softmax (log accumulators)` over the row axis of each `(s, d)` matrix: with
  `L n k = log (A n k)`, `M k` the column maximum (taken once more against `-∞`, which changes nothing),
  `lw n k = (L n k - M k) - log (0 + ∑ n, exp (L n k - M k))`. Then `xm b` the row maximum of `x`, `w k` the column
  maximum of `lw`, and

      out b k = log (∑ n, exp (x b n - xm b) · exp (lw n k - w k)) + xm b + w k.

  So entry `(s, d, b, k)` is `LogShift.entryR` of the row `x (s, d, b, ·)` and the column `accumulators (s, d, ·, k)`.
  Each stage below is one operation of the reference read at an index written by its coordinates; a broadcast reads
  its operand with the unit coordinate `0`, a reduction over one axis is a fold or a sum over that coordinate.
-/
import proofs.«169046_j23527830847520_1_alg».proof.Proof.RefRead
import proofs.«169046_j23527830847520_1_alg».proof.Proof.LibLogShift
import Idealize.ShloMosaic.PureOps.Ideal.Laws
import Idealize.ShloMosaic.Lib.ValueIdx

noncomputable section

namespace Cert.ReferenceIdeal.RefValue

open Idealize.ShloMosaic Idealize.ShloMosaic.ValueIdx Cert.ReferenceIdeal Cert.ReferenceIdeal.Gen Cert.ReferenceIdeal.Read
open Cert.LogShift

/-- The contents of `accumulators` and of `x`. -/
abbrev A1 : Type := (⟨S32x8x512x512, .f32⟩ : BufTy).Contents (Elt Ideal)
abbrev A0 : Type := (⟨S32x8x256x512, .f32⟩ : BufTy).Contents (Elt Ideal)

/-- Column `k` of `log accumulators` in the `(s, d)` matrix. -/
def col (x1 : A1) (s : Fin 32) (d : Fin 8) (k : Fin 512) : Fin 512 → EReal := fun n => Ideal.log (x1 (ix4 s d n k))

/-- Row `b` of `x` in the `(s, d)` matrix. -/
def row (x0 : A0) (s : Fin 32) (d : Fin 8) (b : Fin 256) : Fin 512 → EReal := fun n => x0 (ix4 s d b n)

/-! ## Reductions over one axis -/

theorem red2 : S32x8x512x512.Reduces [2] S32x8x512 := by decide
theorem red3 : S32x8x256x512.Reduces [3] S32x8x256 := by decide

theorem lift2 (s : Fin 32) (d : Fin 8) (k n : Fin 512) : red2.lift (ix3 s d k) n = ix4 s d n k :=
  funext fun a => Fin.ext (by match a with | ⟨0, _⟩ => rfl | ⟨1, _⟩ => rfl | ⟨2, _⟩ => rfl | ⟨3, _⟩ => rfl)

theorem lift3 (s : Fin 32) (d : Fin 8) (b : Fin 256) (n : Fin 512) : red3.lift (ix3 s d b) n = ix4 s d b n :=
  funext fun a => Fin.ext (by match a with | ⟨0, _⟩ => rfl | ⟨1, _⟩ => rfl | ⟨2, _⟩ => rfl | ⟨3, _⟩ => rfl)

/-- A maximum over the row axis of a `[32, 8, 512, 512]` array, from `-∞`, at `(s, d, k)`. -/
theorem reduce_max2 (y : A1) (init : S_.Idx → EReal) (hinit : init (Shape.Idx.first h_S_) = ⊥) (s : Fin 32) (d : Fin 8) (k : Fin 512) :
    Host.reduce (FloatOps.maximumf (F := Ideal) (φ := .f32)) y init reducesTo_S32x8x512x512_S32x8x512_d2 h_S_ (ix3 s d k)
      = cmax fun n : Fin 512 => y (ix4 s d n k) :=
  (Host.reduce_eq_fold_single (FloatOps.maximumf (F := Ideal) (φ := .f32)) y init reducesTo_S32x8x512x512_S32x8x512_d2 red2 h_S_ (ix3 s d k)).trans
    (fold_eq_cmax _ _ _ hinit fun n => congrArg y (lift2 s d k n))

/-- A maximum over the column axis of a `[32, 8, 256, 512]` array, from `-∞`, at `(s, d, b)`. -/
theorem reduce_max3 (y : A0) (init : S_.Idx → EReal) (hinit : init (Shape.Idx.first h_S_) = ⊥) (s : Fin 32) (d : Fin 8) (b : Fin 256) :
    Host.reduce (FloatOps.maximumf (F := Ideal) (φ := .f32)) y init reducesTo_S32x8x256x512_S32x8x256_d3 h_S_ (ix3 s d b)
      = cmax fun n : Fin 512 => y (ix4 s d b n) :=
  (Host.reduce_eq_fold_single (FloatOps.maximumf (F := Ideal) (φ := .f32)) y init reducesTo_S32x8x256x512_S32x8x256_d3 red3 h_S_ (ix3 s d b)).trans
    (fold_eq_cmax _ _ _ hinit fun n => congrArg y (lift3 s d b n))

/-! ## The index maps of the broadcasts, at coordinates -/

theorem i_c3 (s : Fin 32) (d : Fin 8) (u : Fin 1) (k : Fin 512) : idx_main_call0_v3 (ix4 s d u k) = ix3 s d k :=
  funext fun a => Fin.ext (by match a with | ⟨0, _⟩ => rfl | ⟨1, _⟩ => rfl | ⟨2, _⟩ => rfl)
theorem i_c4 (s : Fin 32) (d : Fin 8) (n k : Fin 512) : idx_main_call0_v4 (ix4 s d n k) = ix4 s d (0 : Fin 1) k :=
  funext fun a => Fin.ext (by match a with | ⟨0, _⟩ => rfl | ⟨1, _⟩ => rfl | ⟨2, _⟩ => rfl | ⟨3, _⟩ => rfl)
theorem i_c7 (s : Fin 32) (d : Fin 8) (k n : Fin 512) : idx_main_call0_v7 (ix3 s d k) n = ix4 s d n k :=
  funext fun a => Fin.ext (by match a with | ⟨0, _⟩ => rfl | ⟨1, _⟩ => rfl | ⟨2, _⟩ => rfl | ⟨3, _⟩ => rfl)
theorem i_c8 (s : Fin 32) (d : Fin 8) (u : Fin 1) (k : Fin 512) : idx_main_call0_v8 (ix4 s d u k) = ix3 s d k :=
  funext fun a => Fin.ext (by match a with | ⟨0, _⟩ => rfl | ⟨1, _⟩ => rfl | ⟨2, _⟩ => rfl)
theorem i_c10 (s : Fin 32) (d : Fin 8) (n k : Fin 512) : idx_main_call0_v10 (ix4 s d n k) = ix4 s d (0 : Fin 1) k :=
  funext fun a => Fin.ext (by match a with | ⟨0, _⟩ => rfl | ⟨1, _⟩ => rfl | ⟨2, _⟩ => rfl | ⟨3, _⟩ => rfl)
theorem i_3 (s : Fin 32) (d : Fin 8) (b : Fin 256) (u : Fin 1) : idx_main_v3 (ix4 s d b u) = ix3 s d b :=
  funext fun a => Fin.ext (by match a with | ⟨0, _⟩ => rfl | ⟨1, _⟩ => rfl | ⟨2, _⟩ => rfl)
theorem i_5 (s : Fin 32) (d : Fin 8) (u : Fin 1) (k : Fin 512) : idx_main_v5 (ix4 s d u k) = ix3 s d k :=
  funext fun a => Fin.ext (by match a with | ⟨0, _⟩ => rfl | ⟨1, _⟩ => rfl | ⟨2, _⟩ => rfl)
theorem i_6 (s : Fin 32) (d : Fin 8) (b : Fin 256) (n : Fin 512) : idx_main_v6 (ix4 s d b n) = ix4 s d b (0 : Fin 1) :=
  funext fun a => Fin.ext (by match a with | ⟨0, _⟩ => rfl | ⟨1, _⟩ => rfl | ⟨2, _⟩ => rfl | ⟨3, _⟩ => rfl)
theorem i_9 (s : Fin 32) (d : Fin 8) (n k : Fin 512) : idx_main_v9 (ix4 s d n k) = ix4 s d (0 : Fin 1) k :=
  funext fun a => Fin.ext (by match a with | ⟨0, _⟩ => rfl | ⟨1, _⟩ => rfl | ⟨2, _⟩ => rfl | ⟨3, _⟩ => rfl)
theorem i_l12 (s : Fin 32) (d : Fin 8) (b : Fin 256) (k n : Fin 512) : lidx_main_v12 (ix4 s d b k) n = ix4 s d b n :=
  funext fun a => Fin.ext (by match a with | ⟨0, _⟩ => rfl | ⟨1, _⟩ => rfl | ⟨2, _⟩ => rfl | ⟨3, _⟩ => rfl)
theorem i_r12 (s : Fin 32) (d : Fin 8) (b : Fin 256) (k n : Fin 512) : ridx_main_v12 (ix4 s d b k) n = ix4 s d n k :=
  funext fun a => Fin.ext (by match a with | ⟨0, _⟩ => rfl | ⟨1, _⟩ => rfl | ⟨2, _⟩ => rfl | ⟨3, _⟩ => rfl)
theorem i_14 (s : Fin 32) (d : Fin 8) (b : Fin 256) (k : Fin 512) : idx_main_v14 (ix4 s d b k) = ix4 s d b (0 : Fin 1) :=
  funext fun a => Fin.ext (by match a with | ⟨0, _⟩ => rfl | ⟨1, _⟩ => rfl | ⟨2, _⟩ => rfl | ⟨3, _⟩ => rfl)
theorem i_16 (s : Fin 32) (d : Fin 8) (b : Fin 256) (k : Fin 512) : idx_main_v16 (ix4 s d b k) = ix4 s d (0 : Fin 1) k :=
  funext fun a => Fin.ext (by match a with | ⟨0, _⟩ => rfl | ⟨1, _⟩ => rfl | ⟨2, _⟩ => rfl | ⟨3, _⟩ => rfl)

/-! ## The log-softmax, stage by stage -/

variable (x0 : A0) (x1 : A1) (s : Fin 32) (d : Fin 8)

theorem v0_at (n k : Fin 512) : val_main_v0 (F := Ideal) x1 (ix4 s d n k) = col x1 s d k n := rfl

/-- The column maximum. -/
theorem c0_at (k : Fin 512) : val_main_call0_v0 (F := Ideal) x1 (ix3 s d k) = cmax (col x1 s d k) :=
  reduce_max2 (val_main_v0 (F := Ideal) x1) (val_main_call0_cst (F := Ideal)) neg_inf s d k

/-- The maximum against `-∞` once more is the maximum. -/
theorem c2_at (k : Fin 512) : val_main_call0_v2 (F := Ideal) x1 (ix3 s d k) = cmax (col x1 s d k) := by
  rw [val_main_call0_v2_apply, val_main_call0_v1_apply, c0_at]
  show max (Ideal.ofBits .f32 0xFF800000#32) _ = _
  rw [neg_inf]
  exact max_eq_right bot_le

theorem c4_at (n k : Fin 512) : val_main_call0_v4 (F := Ideal) x1 (ix4 s d n k) = cmax (col x1 s d k) := by
  rw [val_main_call0_v4_apply, i_c4, val_main_call0_v3_apply, i_c3, c2_at]

/-- The shifted logarithm `L n - M`. -/
theorem c5_at (n k : Fin 512) :
    val_main_call0_v5 (F := Ideal) x1 (ix4 s d n k) = col x1 s d k n - cmax (col x1 s d k) := by
  rw [val_main_call0_v5_apply, c4_at]
  rfl

theorem c6_at (n k : Fin 512) :
    val_main_call0_v6 (F := Ideal) x1 (ix4 s d n k) = Ideal.exp (col x1 s d k n - cmax (col x1 s d k)) := by
  rw [val_main_call0_v6_apply, c5_at]
  rfl

/-- The column sum of the shifted exponentials (the sum's initial value is `0`). -/
theorem c7_at (k : Fin 512) :
    val_main_call0_v7 (F := Ideal) x1 (ix3 s d k) = ∑ n : Fin 512, Ideal.exp (col x1 s d k n - cmax (col x1 s d k)) := by
  rw [val_main_call0_v7_apply]
  show Ideal.ofBits .f32 0x00000000#32 + _ = _
  rw [Ideal.ofBits_zero_f32, zero_add]
  exact Finset.sum_congr rfl fun n _ => by rw [i_c7, c6_at]

theorem c9_at (k : Fin 512) : val_main_call0_v9 (F := Ideal) x1 (ix4 s d (0 : Fin 1) k) = lse (col x1 s d k) := by
  rw [val_main_call0_v9_apply, val_main_call0_v8_apply, i_c8, c7_at]
  rfl

/-- The normalised logarithm. -/
theorem v1_at (n k : Fin 512) : val_main_v1 (F := Ideal) x1 (ix4 s d n k) = lw (col x1 s d k) n := by
  rw [val_main_v1_apply, c5_at, val_main_call0_v10_apply, i_c10, c9_at]
  rfl

/-! ## The maxima and the product -/

/-- The row maximum of `x`. -/
theorem v2_at (b : Fin 256) : val_main_v2 (F := Ideal) x0 (ix3 s d b) = cmax (row x0 s d b) :=
  reduce_max3 x0 (val_main_cst (F := Ideal)) neg_inf s d b

theorem v3_at (b : Fin 256) : val_main_v3 (F := Ideal) x0 (ix4 s d b (0 : Fin 1)) = cmax (row x0 s d b) := by
  rw [val_main_v3_apply, i_3, v2_at]

/-- The column maximum of the normalised logarithms. -/
theorem v4_at (k : Fin 512) : val_main_v4 (F := Ideal) x1 (ix3 s d k) = cmax (lw (col x1 s d k)) :=
  (reduce_max2 (val_main_v1 (F := Ideal) x1) (val_main_cst_0 (F := Ideal)) neg_inf s d k).trans
    (congrArg cmax (funext fun n => v1_at x1 s d n k))

theorem v5_at (k : Fin 512) : val_main_v5 (F := Ideal) x1 (ix4 s d (0 : Fin 1) k) = cmax (lw (col x1 s d k)) := by
  rw [val_main_v5_apply, i_5, v4_at]

theorem v8_at (b : Fin 256) (n : Fin 512) :
    val_main_v8 (F := Ideal) x0 (ix4 s d b n) = Ideal.exp (row x0 s d b n - cmax (row x0 s d b)) := by
  rw [val_main_v8_apply, val_main_v7_apply, val_main_v6_apply, i_6, v3_at]
  rfl

theorem v11_at (n k : Fin 512) :
    val_main_v11 (F := Ideal) x1 (ix4 s d n k) = Ideal.exp (lw (col x1 s d k) n - cmax (lw (col x1 s d k))) := by
  rw [val_main_v11_apply, val_main_v10_apply, v1_at, val_main_v9_apply, i_9, v5_at]
  rfl

theorem v12_at (b : Fin 256) (k : Fin 512) :
    val_main_v12 (F := Ideal) x0 x1 (ix4 s d b k)
      = ∑ n : Fin 512, Ideal.exp (row x0 s d b n - cmax (row x0 s d b))
          * Ideal.exp (lw (col x1 s d k) n - cmax (lw (col x1 s d k))) := by
  rw [val_main_v12_apply]
  exact Finset.sum_congr rfl fun n _ => by rw [i_l12, i_r12, v8_at, v11_at]

/-- THE ENTRY: the reference's result at `(s, d, b, k)` is `entryR` of the row of `x` and the column of
    `accumulators`. -/
theorem v17_at (b : Fin 256) (k : Fin 512) :
    val_main_v17 (F := Ideal) x0 x1 (ix4 s d b k)
      = entryR (fun n : Fin 512 => (x0 (ix4 s d b n) : EReal)) (fun n : Fin 512 => (x1 (ix4 s d n k) : EReal)) := by
  rw [val_main_v17_apply, val_main_v15_apply, val_main_v13_apply, v12_at, val_main_v14_apply, i_14, v3_at,
    val_main_v16_apply, i_16, v5_at]
  rfl

end Cert.ReferenceIdeal.RefValue

end
-- ==== Proof.Bridge.lean ====
/-
  The reference's result array is the kernel's, when `accumulators` holds real numbers.

  At `(s, d, b, k)` the reference's result is `entryR` and the kernel's is `entryK` of the same row of `x` and the same
  column of `accumulators`; the two agree as soon as no entry of that column is `+∞` (the shift law), and a real
  number is not `+∞`.
-/
import proofs.«169046_j23527830847520_1_alg».proof.Proof.KernelArray
import proofs.«169046_j23527830847520_1_alg».proof.Proof.RefEntry

noncomputable section

namespace Cert.Bridge

open Idealize.ShloMosaic Idealize.ShloMosaic.ValueIdx Cert.LogShift

theorem ref_eq_res (x0 : Cert.ReferenceIdeal.RefValue.A0) (x1 : Cert.ReferenceIdeal.RefValue.A1)
    (hfin : ∀ i, ∃ r : ℝ, (x1 i : EReal) = (r : EReal)) :
    Cert.ReferenceIdeal.Read.val_main_v17 (F := Ideal) x0 x1 = Cert.KernelIdeal.Arr.res x0 x1 := by
  funext i
  obtain ⟨s, d, b, k, rfl⟩ : ∃ (s : Fin 32) (d : Fin 8) (b : Fin 256) (k : Fin 512), i = ix4 s d b k :=
    ⟨i 0, i 1, i 2, i 3, eq_ix4 i⟩
  rw [Cert.ReferenceIdeal.RefValue.v17_at]
  show entryR _ _ = entryK _ _
  exact entryR_eq_entryK _ _ fun n => by
    obtain ⟨r, hr⟩ := hfin (ix4 s d n k)
    show (x1 (ix4 s d n k) : EReal) ≠ ⊤
    rw [hr]
    exact EReal.coe_ne_top r

end Cert.Bridge

end
-- ==== Proof.LibFiniteAll.lean ====
/-
  A printed "every entry is finite" test, read back on the extended reals.

  The test `all(|x| < +inf)` prints as: the absolute value of every entry, compared (ordered, less-than) with the
  broadcast of the single-precision word of plus infinity, and the resulting array of truth values reduced by `and`
  into a result that has one index. On the extended reals the absolute value is `max x (-x)` and the word
  0x7F800000 (sign 0, exponent field all ones, mantissa 0) denotes plus infinity. So an entry passes the comparison
  exactly when it is neither plus nor minus infinity, that is, when it is a real number; and a reduction by `and`
  that came out 1 met a 1 at every entry.
-/
import Idealize.ShloMosaic.PureOps.Ideal
import Idealize.ShloMosaic.Lib.ReduceAll

namespace Cert.FiniteAll

open Idealize.ShloMosaic

/-- The single-precision word with sign 0, exponent field all ones and mantissa 0 denotes plus infinity. -/
theorem ofBits_inf_f32 : Ideal.ofBits .f32 0x7F800000#32 = (⊤ : EReal) := by
  simp [Ideal.ofBits, Ideal.ieee]

/-- An extended real whose absolute value `max x (-x)` lies below plus infinity is a real number: plus infinity
    is its own absolute value, and the negative of minus infinity is plus infinity. -/
theorem exists_real_of_abs_lt_top {x : EReal} (h : max x (-x) < ⊤) : ∃ r : ℝ, x = (r : EReal) := by
  induction x using EReal.rec with
  | bot => simp at h
  | coe r => exact ⟨r, rfl⟩
  | top => simp at h

/-- One entry: if the ordered comparison `|x| < +inf` answers 1, then `x` is a real number. -/
theorem exists_real_of_cmp (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  by_cases hlt : max (x : EReal) (-(x : EReal)) < ⊤
  · exact exists_real_of_abs_lt_top hlt
  · simp [hlt] at h'

/-- THE ARRAY FACT: if `|x| < +inf`, taken entry by entry against the broadcast word of plus infinity and reduced
    by `and` into a result with one index, is 1, then every entry of `x` is a real number. The shape of `x`, the
    reduced axes, the shape the constant is broadcast from and the reduction's starting value are arbitrary. -/
theorem all_real_of_reduce_and {s t u z : Shape} {axes : List (Fin s.rank)} [Subsingleton t.Idx]
    (x : FVec Ideal s .f32) (dims : Fin z.rank → Fin s.rank) (hb : z.BroadcastsInDim s dims)
    (init : u.Idx → BitVec 1) (hr : s.ReducesTo axes t) (hu : 0 < u.numel) (j : t.Idx)
    (e : Host.reduce IntOp.andi
          (cmpf .olt (Host.absf x) (broadcastInDim s dims hb (constant (F := Ideal) z .f32 0x7F800000#32)))
          init hr hu j = 1#1)
    (i : s.Idx) : ∃ r : ℝ, (x i : EReal) = (r : EReal) :=
  exists_real_of_cmp (x i) (Host.reduce_andi_all _ init hr hu j e i)

end Cert.FiniteAll
-- ==== Proof.Finite.lean ====
/-
  The precondition, decoded: every entry of `accumulators` is a real number.

  `finite_inputs` is the conjunction (an `and` of two bits) of two tests of the form `all (|a| < +∞)`, one per
  argument array. When the conjunction is 1 so is its second bit, and a test of that form that answers 1 makes every
  entry of its array a real number.
-/
import proofs.«169046_j23527830847520_1_alg».proof.Pre_finite_inputs
import proofs.«169046_j23527830847520_1_alg».proof.Proof.Gen.Pre_finite_inputs
import proofs.«169046_j23527830847520_1_alg».proof.Proof.LibFiniteAll
import Idealize.ShloMosaic.Lib.Affine
import Idealize.ShloMosaic.Lib.ValueIdx

noncomputable section

namespace Cert.Pre_finite_inputs.Decode

open Idealize.ShloMosaic Cert.Pre_finite_inputs

/-- A rank-0 array has one index. -/
instance : Subsingleton S_.Idx := ⟨fun a b => funext fun d => d.elim0⟩

/-- Under the precondition every entry of the second argument array is a real number. -/
theorem arg1_real (x0 : FVec Ideal S32x8x256x512 .f32) (x1 : FVec Ideal S32x8x512x512 .f32)
    (h : fn (F := Ideal) x0 x1 = fun _ => 1#1) (i : S32x8x512x512.Idx) : ∃ r : ℝ, (x1 i : EReal) = (r : EReal) := by
  have h0 : fn (F := Ideal) x0 x1 ValueIdx.ix0 = 1#1 := congrFun h ValueIdx.ix0
  have h1 := (IntOp.andi_eq_one.mp h0).2
  exact Cert.FiniteAll.all_real_of_reduce_and x1 _ _ _ _ _ _ h1 i

end Cert.Pre_finite_inputs.Decode

end
-- ==== Proof.lean ====
/-
  A log-domain matrix product against its jnp reference, on the extended reals.

  Both programs take `x` `[32, 8, 256, 512]` and `accumulators` `[32, 8, 512, 512]` and, for each of the 256 pairs
  `(s, d)`, compute `out b k = logsumexp_n (x b n + lw n k)` with `lw = log_softmax (log accumulators)` over `n`, in the
  stable form: shift `x` by its row maxima `xm` and the normalised logarithms by a column offset `w`, take an ordinary
  matrix product of the exponentials, and add `xm` and `w` back to its logarithm.

  The reference normalises first (`lw n k = (L n k - M k) - ls k`, with `L = log accumulators`, `M` its column maxima,
  `ls k = log ∑ n, exp (L n k - M k)`) and then recomputes `w k` as the column maximum of `lw`. The kernel never forms
  `lw`: it multiplies by `exp (L n k - M k)` and uses the offset `M k - (ls k + M k)`. On the extended reals the two
  agree whenever no entry of `log accumulators` is `+∞` (the shift law, LibLogShift.lean): if `M k` is a real number
  everything is real arithmetic with `-∞` absorbing, and if `M k = -∞` both sides are `-∞` and `0`. The hypothesis holds
  because the precondition makes every entry of `accumulators` a real number, whose logarithm is a real number or
  `-∞` (a zero or a negative entry included). Nothing is needed of `x`.

  The kernel's side (KernelEntry.lean, KernelArray.lean): what a grid point stores, read at an entry; the 256 blocks
  tile the output; the three reshapes around the region cancel. The reference's side (RefRun.lean, RefRead.lean,
  RefEntry.lean): its run, and its result read at an entry. Bridge.lean joins the two; Finite.lean decodes the
  precondition. The three frames: the kernel's two are the generated frame certificates, the reference's is its
  run with the result dropped. The idealization rewrote nothing, so `preserves` is trivial.
-/
import proofs.«169046_j23527830847520_1_alg».proof.Defs
import proofs.«169046_j23527830847520_1_alg».proof.Proof.Gen.Kernel
import proofs.«169046_j23527830847520_1_alg».proof.Proof.Gen.Kernel.Skeleton
import proofs.«169046_j23527830847520_1_alg».proof.Proof.Gen.Kernel.Launch
import proofs.«169046_j23527830847520_1_alg».proof.Proof.Gen.Kernel.Points
import proofs.«169046_j23527830847520_1_alg».proof.Proof.Gen.Kernel.Frame
import proofs.«169046_j23527830847520_1_alg».proof.Proof.Gen.KernelIdeal
import proofs.«169046_j23527830847520_1_alg».proof.Proof.Gen.KernelIdeal.Skeleton
import proofs.«169046_j23527830847520_1_alg».proof.Proof.Gen.KernelIdeal.Launch
import proofs.«169046_j23527830847520_1_alg».proof.Proof.Gen.KernelIdeal.Points
import proofs.«169046_j23527830847520_1_alg».proof.Proof.Gen.KernelIdeal.Frame
import proofs.«169046_j23527830847520_1_alg».proof.Proof.Gen.ReferenceIdeal
import proofs.«169046_j23527830847520_1_alg».proof.Proof.Gen.Pre_finite_inputs
import proofs.«169046_j23527830847520_1_alg».proof.Proof.KernelArray
import proofs.«169046_j23527830847520_1_alg».proof.Proof.RefEntry
import proofs.«169046_j23527830847520_1_alg».proof.Proof.Bridge
import proofs.«169046_j23527830847520_1_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at one array: the kernel's run ends at `res` of the two arguments, the reference's at its last
    stage of arguments that agree with them, and the two functions are one where `accumulators` is real. -/
theorem algebraic : Cert.algebraic_KernelIdeal_ReferenceIdeal := by
  intro m ρ m' ρ' hpre hagree
  refine ⟨_, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2]
  exact Cert.Bridge.ref_eq_res _ _ (Cert.Pre_finite_inputs.Decode.arg1_real _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
